-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x64 .f32) (main_arg3 : FVec F S64 .f32) (main_arg4 : FVec F S64x16 .f32) (main_arg5 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x512 : Shape := ⟨2, ![10000, 512]⟩
abbrev S10000x64 : Shape := ⟨2, ![10000, 64]⟩
abbrev S850000x64 : Shape := ⟨2, ![850000, 64]⟩
abbrev S1x64 : Shape := ⟨2, ![1, 64]⟩
abbrev S50000x16 : Shape := ⟨2, ![50000, 16]⟩
abbrev S10000x16 : Shape := ⟨2, ![10000, 16]⟩
abbrev S850000x16 : Shape := ⟨2, ![850000, 16]⟩
abbrev S1x16 : Shape := ⟨2, ![1, 16]⟩

abbrev nBuf : Space → Nat
  | .hbm => 93
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x512, .bf16⟩
  | .hbm, ⟨47, _⟩ => ⟨S512x64, .bf16⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x64, .bf16⟩
  | .hbm, ⟨72, _⟩ => ⟨S64x16, .bf16⟩
  | .hbm, ⟨73, _⟩ => ⟨S50000x16, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x16, .f32⟩
  | .hbm, ⟨83, _⟩ => ⟨S850000x1, .f32⟩
  | .hbm, ⟨84, _⟩ => ⟨S850000x16, .f32⟩
  | .hbm, ⟨85, _⟩ => ⟨S850000x16, .f32⟩
  | .hbm, ⟨86, _⟩ => ⟨S_, .f32⟩
  | .hbm, ⟨87, _⟩ => ⟨S50000x16, .f32⟩
  | .hbm, ⟨88, _⟩ => ⟨S850000x1, .i32⟩
  | .hbm, ⟨89, _⟩ => ⟨S50000x16, .f32⟩
  | .hbm, ⟨90, _⟩ => ⟨S1x16, .f32⟩
  | .hbm, ⟨91, _⟩ => ⟨S50000x16, .f32⟩
  | .hbm, ⟨92, _⟩ => ⟨S50000x16, .f32⟩
  | .local _ .vmem, ⟨0, _⟩ => ⟨S10000x512, .bf16⟩
  | .local _ .vmem, ⟨1, _⟩ => ⟨S10000x512, .bf16⟩
  | .local _ .vmem, ⟨2, _⟩ => ⟨S512x64, .bf16⟩
  | .local _ .vmem, ⟨3, _⟩ => ⟨S10000x64, .f32⟩
  | .local _ .vmem, ⟨4, _⟩ => ⟨S10000x64, .f32⟩
  | .local _ .vmem, ⟨5, _⟩ => ⟨S10000x64, .bf16⟩
  | .local _ .vmem, ⟨6, _⟩ => ⟨S10000x64, .bf16⟩
  | .local _ .vmem, ⟨7, _⟩ => ⟨S64x16, .bf16⟩
  | .local _ .vmem, ⟨8, _⟩ => ⟨S10000x16, .f32⟩
  | .local _ .vmem, ⟨9, _⟩ => ⟨S10000x16, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S10000x16_S10000x16_0_0 : ∀ a, (![0, 0] : Fin 2 → Nat) a + S10000x16.size a ≤ S10000x16.size a
  h_S10000x16 : 0 < S10000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x512_S512x64_S10000x64_1_0_0_1_n_n_wf : DotDims.WF S10000x512 S512x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x16_S10000x16_1_0_0_1_n_n_wf : DotDims.WF S10000x64 S64x16 S10000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S50000x512.size a
  hwx0_0 : ∀ i : grid0.Coords, EltTy.bits .bf16 = 32 ∨ (Rect.block (s := S50000x512) S10000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .bf16 = 32 ∨ (Rect.block (s := S50000x64) S10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .bf16 = 32 ∨ (Rect.block (s := S64x16) S64x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S50000x16.size a
  hwx1_2 : ∀ i : grid1.Coords, EltTy.bits .f32 = 32 ∨ (Rect.block (s := S50000x16) S10000x16.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_v30) S10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x16, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x16, .f32⟩
  | .hbm, ⟨79, _⟩ => ⟨S850000x1, .f32⟩
  | .hbm, ⟨80, _⟩ => ⟨S850000x16, .f32⟩
  | .hbm, ⟨81, _⟩ => ⟨S850000x16, .f32⟩
  | .hbm, ⟨82, _⟩ => ⟨S_, .f32⟩
  | .hbm, ⟨83, _⟩ => ⟨S50000x16, .f32⟩
  | .hbm, ⟨84, _⟩ => ⟨S850000x1, .i32⟩
  | .hbm, ⟨85, _⟩ => ⟨S50000x16, .f32⟩
  | .hbm, ⟨86, _⟩ => ⟨S1x16, .f32⟩
  | .hbm, ⟨87, _⟩ => ⟨S50000x16, .f32⟩
  | .hbm, ⟨88, _⟩ => ⟨S50000x16, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x64_S50000x64_1_0_0_1_n_n_wf : DotDims.WF S50000x512 S512x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel's program is two pipelined matrix products among stretches of host operations. Its frame proof
  follows the buffers through the whole program: the contents of every unscoped buffer of a core at each boundary between
  a host stretch and a pipelined region are named (`W0` at launch, … , `W9` at the return), a host stretch moving them by
  the fold of its operations and a region by the write-backs of its pipeline.

  Here the same run is stated with its LAST reading kept: every weakly fair execution terminates, nothing faults, and in
  the final state every unscoped buffer of every core holds `W9` — in particular the result buffer, whose value the frame
  claim itself does not mention. The frame claim and the value of the result are both consequences of this one statement.
-/
import proofs.«102583_j43052752175665_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run: from any memory with zero counters every weakly fair execution of the program terminates without a
    fault, and every unscoped buffer of every core ends at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The result buffer is unscoped, so the run reads it: it ends at `W9`. -/
theorem run_result : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (run_all m ρ)

end Cert.KernelIdeal.Whole

end
-- ==== Proof.Spec.lean ====
/-
  The mathematics both programs compute: two layers of a graph convolution.

  From the edge list `e` (two rows of N_E node numbers) the SOURCES and the DESTINATIONS are the two rows, each followed by
  the self loops 0, 1, …, N-1. A node's degree counts the destinations equal to it; `dinv` is its inverse square root
  where the degree is positive and 0 elsewhere, and an edge's weight `norm` is `dinv` at its source times `dinv` at its
  destination (negative node numbers wrapped by N first, as array indexing does). One layer takes node features `h`
  (already multiplied by the layer's weights), gathers the row of each edge's source, scales it by the edge's weight, adds
  the scaled rows up at each edge's destination, and adds the bias. The network is
      layer₂ (relu (layer₁ (x · W₁)) · W₂).
  Everything here except the two matrix products is the SAME chain of host operations in the kernel's program and in the
  reference: the chains are named once, as functions of their inputs, and are never opened.

  `mm` is a matrix product written out entry by entry on the extended reals: the sum over the contracted coordinate of
  the products. Both a product cut into row blocks with a zero accumulator and a whole `dot_general` are this function.
-/
import proofs.«102583_j43052752175665_1_alg».proof.ReferenceIdeal
import proofs.«102583_j43052752175665_1_alg».proof.Proof.Gen.ReferenceIdeal
import Idealize.ShloMosaic.PureOps.Ideal
import Idealize.ShloMosaic.Lib.ValueIdx

noncomputable section

namespace Cert.Gcn

open Cert.ReferenceIdeal Cert.ReferenceIdeal.Gen Idealize.ShloMosaic Idealize.ShloMosaic.ValueIdx

/-! ## A matrix product, entry by entry -/

/-- The product of an `[M, K]` array and a `[K, N]` array: entry `(r, c)` is the sum over `k` of `x (r, k) · w (k, c)`. -/
def mm (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

theorem mm_ix2 (M K N : Nat) (x : (⟨2, ![M, K]⟩ : Shape).Idx → EReal) (w : (⟨2, ![K, N]⟩ : Shape).Idx → EReal)
    (r : Fin M) (c : Fin N) : mm M K N x w (ix2 r c) = ∑ k : Fin K, x (ix2 r k) * w (ix2 k c) := rfl

/-! ## The shared host chains -/

variable {F : FTy → Type} [FloatOps F]

/-- The edges' sources, then the self loops. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations, then the self loops. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Node numbers as a column of gather / scatter positions, a negative one wrapped by the number of nodes. -/
def wrapIdx (s : (⟨S850000, .i32⟩ : BufTy).Contents (Elt F)) : (⟨S850000x1, .i32⟩ : BufTy).Contents (Elt F) :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- A node's degree: the number of destinations equal to it. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- The inverse square root of the degree where it is positive, zero elsewhere. -/
def dinvOf (d : (⟨S850000, .i32⟩ : BufTy).Contents (Elt F)) : (⟨S50000, .f32⟩ : BufTy).Contents (Elt F) :=
  select (cmpf (F := F) .ogt (degOf d) (broadcastInDim S50000 ![] bcast_S_S50000 (constant S_ .f32 0x00000000#32))) (Host.rsqrt (degOf d)) (broadcastInDim S50000 ![] bcast_S_S50000 (id (constant S_ .f32 0x00000000#32)))

/-- An edge's weight: `dinv` at its source times `dinv` at its destination. -/
def normOf (s d : (⟨S850000, .i32⟩ : BufTy).Contents (Elt F)) : (⟨S850000, .f32⟩ : BufTy).Contents (Elt F) :=
  mulf (Host.gather gather_S50000_S850000x1_S850000_n_0_n_n_0_1_1 (dinvOf d) (wrapIdx s)) (Host.gather gather_S50000_S850000x1_S850000_n_0_n_n_0_1_1 (dinvOf d) (wrapIdx d))

/-- The first layer's aggregation of 64 features: gather at the sources, scale by the weights, add up at the
    destinations, add the bias. -/
def agg64 (h : (⟨S50000x64, .f32⟩ : BufTy).Contents (Elt F)) (s d : (⟨S850000, .i32⟩ : BufTy).Contents (Elt F))
    (nrm : (⟨S850000, .f32⟩ : BufTy).Contents (Elt F)) (b : (⟨S64, .f32⟩ : BufTy).Contents (Elt F)) :
    (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 h (wrapIdx s)) (broadcastInDim S850000x64 ![0, 1] bcast_S850000x1_S850000x64_0_1 (broadcastInDim S850000x1 ![0] bcast_S850000_S850000x1_0 nrm)))) (broadcastInDim S50000x64 ![0, 1] bcast_S1x64_S50000x64_0_1 (broadcastInDim S1x64 ![1] bcast_S64_S1x64_1 b))

/-- The rectifier between the layers. -/
def relu64 (x : (⟨S50000x64, .f32⟩ : BufTy).Contents (Elt F)) : (⟨S50000x64, .f32⟩ : BufTy).Contents (Elt F) :=
  maximumf x (broadcastInDim S50000x64 ![] bcast_S_S50000x64 (constant S_ .f32 0x00000000#32))

/-- The second layer's aggregation of 16 features. -/
def agg16 (h : (⟨S50000x16, .f32⟩ : BufTy).Contents (Elt F)) (s d : (⟨S850000, .i32⟩ : BufTy).Contents (Elt F))
    (nrm : (⟨S850000, .f32⟩ : BufTy).Contents (Elt F)) (b : (⟨S16, .f32⟩ : BufTy).Contents (Elt F)) :
    (⟨S50000x16, .f32⟩ : BufTy).Contents (Elt F) :=
  addf (Host.scatterAdd scatter_S50000x16_S850000x1_S850000x16_1_0_0_1 (broadcastInDim S50000x16 ![] bcast_S_S50000x16 (constant S_ .f32 0x00000000#32)) (broadcastInDim S850000x1 ![0] bcast_S850000_S850000x1_0 d) (mulf (Host.gather gather_S50000x16_S850000x1_S850000x16_1_0_n_n_0_1_116 h (wrapIdx s)) (broadcastInDim S850000x16 ![0, 1] bcast_S850000x1_S850000x16_0_1 (broadcastInDim S850000x1 ![0] bcast_S850000_S850000x1_0 nrm)))) (broadcastInDim S50000x16 ![0, 1] bcast_S1x16_S50000x16_0_1 (broadcastInDim S1x16 ![1] bcast_S16_S1x16_1 b))

/-- The network with the two projections `p₁ = x · W₁` and `p₂ = relu (…) · W₂` left as parameters: given how each
    projection is computed from its inputs, everything else is the shared chains. -/
def net (p1 : (⟨S50000x64, .f32⟩ : BufTy).Contents (Elt F))
    (p2 : (⟨S50000x64, .f32⟩ : BufTy).Contents (Elt F) → (⟨S50000x16, .f32⟩ : BufTy).Contents (Elt F))
    (e : (⟨S2x800000, .i32⟩ : BufTy).Contents (Elt F)) (b1 : (⟨S64, .f32⟩ : BufTy).Contents (Elt F))
    (b2 : (⟨S16, .f32⟩ : BufTy).Contents (Elt F)) : (⟨S50000x16, .f32⟩ : BufTy).Contents (Elt F) :=
  agg16 (p2 (relu64 (agg64 p1 (srcOf e) (dstOf e) (normOf (srcOf e) (dstOf e)) b1))) (srcOf e) (dstOf e) (normOf (srcOf e) (dstOf e)) b2

end Cert.Gcn

end
-- ==== Proof.Payload.lean ====
/-
  What each kernel body stores, read at an index. Both bodies are the same few lines: load the whole block of rows
  `x` and the whole weight array `w`, multiply them on the matrix unit into an accumulator of zeros, store the product.
  On the extended reals the zero accumulator adds nothing, so the stored block is the plain product: entry `(r, j)` is the
  sum over the contracted coordinate `k` of `x (r, k) · w (k, j)`. The body's two shape casts are casts of a shape to
  itself and change nothing. The contraction has one axis, so its index is its one coordinate, and the operand indices at
  output `(r, j)` and contraction index `k` are `(r, k)` and `(k, j)`.
-/
import proofs.«102583_j43052752175665_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The first product's block: 10000 × 512 times 512 × 64 -/

abbrev d0 := dot_S10000x512_S512x64_S10000x64_1_0_0_1_n_n

theorem d0_lhs0 (i : (⟨2, ![10000, 64]⟩ : Shape).Idx) (q : d0.contr.Idx) : (d0.lhsIdx i q 0).val = (i 0).val := by
  unfold DotDims.lhsIdx
  rw [dif_neg (show ¬(0 : Fin S10000x512.rank) ∈ d0.lhsBatch by decide), dif_pos (show (0 : Fin S10000x512.rank) ∈ d0.lhsNonContracting by decide)]
  rfl

theorem d0_rhs1 (i : (⟨2, ![10000, 64]⟩ : Shape).Idx) (q : d0.contr.Idx) : (d0.rhsIdx i q 1).val = (i 1).val := by
  unfold DotDims.rhsIdx
  rw [dif_neg (show ¬(1 : Fin S512x64.rank) ∈ d0.rhsBatch by decide), dif_pos (show (1 : Fin S512x64.rank) ∈ d0.rhsNonContracting by decide)]
  rfl

/-- The left operand's index at output `(r, j)` and contraction index `k` is `(r, k)`. -/
theorem d0_lhs (r : Fin 10000) (j : Fin 64) (k : Fin 512) :
    d0.lhsIdx (ix2 r j) ((contrEquiv1 d0 512 rfl rfl).symm k) = ix2 r k := by
  have hk := contrEquiv1_symm_val d0 512 rfl rfl k
  funext a; apply Fin.ext
  match a with
  | ⟨0, _⟩ => exact d0_lhs0 _ _
  | ⟨1, _⟩ => exact (d0.lhsIdx_val_of_single rfl (ix2 r j) _).trans hk

/-- The right operand's index at output `(r, j)` and contraction index `k` is `(k, j)`. -/
theorem d0_rhs (r : Fin 10000) (j : Fin 64) (k : Fin 512) :
    d0.rhsIdx (ix2 r j) ((contrEquiv1 d0 512 rfl rfl).symm k) = ix2 k j := by
  have hk := contrEquiv1_symm_val d0 512 rfl rfl k
  funext a; apply Fin.ext
  match a with
  | ⟨0, _⟩ => exact (d0.rhsIdx_val_of_single rfl (ix2 r j) _).trans hk
  | ⟨1, _⟩ => exact d0_rhs1 _ _

/-- The first body's stored block at `(r, j)`: the sum over `k` of `x (r, k) · w (k, j)`. -/
theorem pay0_apply (x0 : Vec Ideal S10000x512 .bf16) (x1 : Vec Ideal S512x64 .bf16) (r : Fin 10000) (j : Fin 64) :
    k0_pay1 x0 x1 (ix2 r j) = ∑ k : Fin 512, x0 (ix2 r k) * x1 (ix2 k j) := by
  unfold k0_pay1
  simp only [matmul]
  rw [shapeCast_self, shapeCast_self, Ideal.matmul_constant_zero_apply, ← Equiv.sum_comp (contrEquiv1 d0 512 rfl rfl).symm]
  refine Finset.sum_congr rfl fun k _ => ?_
  rw [d0_lhs, d0_rhs]

/-! ## The second product's block: 10000 × 64 times 64 × 16 -/

abbrev d1 := dot_S10000x64_S64x16_S10000x16_1_0_0_1_n_n

theorem d1_lhs0 (i : (⟨2, ![10000, 16]⟩ : Shape).Idx) (q : d1.contr.Idx) : (d1.lhsIdx i q 0).val = (i 0).val := by
  unfold DotDims.lhsIdx
  rw [dif_neg (show ¬(0 : Fin S10000x64.rank) ∈ d1.lhsBatch by decide), dif_pos (show (0 : Fin S10000x64.rank) ∈ d1.lhsNonContracting by decide)]
  rfl

theorem d1_rhs1 (i : (⟨2, ![10000, 16]⟩ : Shape).Idx) (q : d1.contr.Idx) : (d1.rhsIdx i q 1).val = (i 1).val := by
  unfold DotDims.rhsIdx
  rw [dif_neg (show ¬(1 : Fin S64x16.rank) ∈ d1.rhsBatch by decide), dif_pos (show (1 : Fin S64x16.rank) ∈ d1.rhsNonContracting by decide)]
  rfl

/-- The left operand's index at output `(r, j)` and contraction index `k` is `(r, k)`. -/
theorem d1_lhs (r : Fin 10000) (j : Fin 16) (k : Fin 64) :
    d1.lhsIdx (ix2 r j) ((contrEquiv1 d1 64 rfl rfl).symm k) = ix2 r k := by
  have hk := contrEquiv1_symm_val d1 64 rfl rfl k
  funext a; apply Fin.ext
  match a with
  | ⟨0, _⟩ => exact d1_lhs0 _ _
  | ⟨1, _⟩ => exact (d1.lhsIdx_val_of_single rfl (ix2 r j) _).trans hk

/-- The right operand's index at output `(r, j)` and contraction index `k` is `(k, j)`. -/
theorem d1_rhs (r : Fin 10000) (j : Fin 16) (k : Fin 64) :
    d1.rhsIdx (ix2 r j) ((contrEquiv1 d1 64 rfl rfl).symm k) = ix2 k j := by
  have hk := contrEquiv1_symm_val d1 64 rfl rfl k
  funext a; apply Fin.ext
  match a with
  | ⟨0, _⟩ => exact (d1.rhsIdx_val_of_single rfl (ix2 r j) _).trans hk
  | ⟨1, _⟩ => exact d1_rhs1 _ _

/-- The second body's stored block at `(r, j)`: the sum over `k` of `x (r, k) · w (k, j)`. -/
theorem pay1_apply (x0 : Vec Ideal S10000x64 .bf16) (x1 : Vec Ideal S64x16 .bf16) (r : Fin 10000) (j : Fin 16) :
    k1_pay1 x0 x1 (ix2 r j) = ∑ k : Fin 64, x0 (ix2 r k) * x1 (ix2 k j) := by
  unfold k1_pay1
  simp only [matmul]
  rw [shapeCast_self, shapeCast_self, Ideal.matmul_constant_zero_apply, ← Equiv.sum_comp (contrEquiv1 d1 64 rfl rfl).symm]
  refine Finset.sum_congr rfl fun k _ => ?_
  rw [d1_lhs, d1_rhs]

end Cert.KernelIdeal.Pay

end
-- ==== Proof.Region0.lean ====
/-
  What the first pipelined product leaves in its result array, as one function of the two operand arrays as the region
  finds them (`V`). The grid has 5 points; at point `t` the pipeline fetches rows `10000 t … 10000 t + 9999` of the
  [50000, 512] operand and the whole [512, 64] weight array, the body stores their product, and the pipeline writes it back to rows
  `10000 t … 10000 t + 9999` of the [50000, 64] result. A row of a product depends only on the same row of the left operand:
  entry `(r, j)` of block `t`'s product is the sum over `k` of `x (10000 t + r, k) · w (k, j)`, which is entry
  `(10000 t + r, j)` of the whole product `mm`. So every point writes back its block of `mm`; the five blocks cover every
  row (row `i` lies in block `i / 10000`); hence the array ends as `mm` of the two operands.
-/
import proofs.«102583_j43052752175665_1_alg».proof.Proof.Gen.KernelIdeal.Frame
import proofs.«102583_j43052752175665_1_alg».proof.Proof.Spec
import proofs.«102583_j43052752175665_1_alg».proof.Proof.Payload
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the rows' block and the result's block are block `t` along the rows; the weights'
    block is always block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 5 := lt_of_lt_of_eq t.isLt N_0

/-- Row `r` of block `t` is row `10000 t + r` of the array. -/
def row (t : Fin cfg0.N) (r : Fin 10000) : Fin 50000 := ⟨t.val * 10000 + r.val, by have := t_lt t; have := r.isLt; omega⟩

/-! ## Where a block's entry sits in its array -/

theorem emb_0 (t : Fin cfg0.N) (r : Fin 10000) (k : Fin 512) :
    ((cfg0.win 0).blk t).view.emb (ix2 r k) = ix2 (row t r) k := by
  obtain ⟨e0, e1, -, -, -, -⟩ := idx_facts t
  funext a; apply Fin.ext
  match a with
  | ⟨0, _⟩ => show win0_0.index t (0 : Fin 2) * 10000 + 1 * r.val = t.val * 10000 + r.val; omega
  | ⟨1, _⟩ => show win0_0.index t (1 : Fin 2) * 512 + 1 * k.val = k.val; omega

theorem emb_1 (t : Fin cfg0.N) (k : Fin 512) (j : Fin 64) :
    ((cfg0.win 1).blk t).view.emb (ix2 k j) = ix2 k j := by
  obtain ⟨-, -, e2, e3, -, -⟩ := idx_facts t
  funext a; apply Fin.ext
  match a with
  | ⟨0, _⟩ => show win0_1.index t (0 : Fin 2) * 512 + 1 * k.val = k.val; omega
  | ⟨1, _⟩ => show win0_1.index t (1 : Fin 2) * 64 + 1 * j.val = j.val; omega

theorem emb_2 (t : Fin cfg0.N) (r : Fin 10000) (j : Fin 64) :
    ((cfg0.win 2).blk t).view.emb (ix2 r j) = ix2 (row t r) j := by
  obtain ⟨-, -, -, -, e4, e5⟩ := idx_facts t
  funext a; apply Fin.ext
  match a with
  | ⟨0, _⟩ => show win0_2.index t (0 : Fin 2) * 10000 + 1 * r.val = t.val * 10000 + r.val; omega
  | ⟨1, _⟩ => show win0_2.index t (1 : Fin 2) * 64 + 1 * j.val = j.val; omega

/-- Block `t` of the rows array, read at `(r, k)`, is the array at row `10000 t + r`. -/
theorem read_0 (c : Dev nD) (t : Fin cfg0.N) (r : Fin 10000) (k : Fin 512) :
    iblk0 V c 0 t (ix2 r k) = V c main_v30 (ix2 (row t r) k) := by
  show V c main_v30 (((cfg0.win 0).blk t).view.emb (ix2 r k)) = _
  rw [emb_0]

/-- The weights' block is the whole weight array at every point. -/
theorem read_1 (c : Dev nD) (t : Fin cfg0.N) (k : Fin 512) (j : Fin 64) :
    iblk0 V c 1 t (ix2 k j) = V c main_v31 (ix2 k j) := by
  show V c main_v31 (((cfg0.win 1).blk t).view.emb (ix2 k j)) = _
  rw [emb_1]

/-! ## Every point writes back its block of the whole product -/

theorem flushed_eq (c : Dev nD) (t : Fin cfg0.N) :
    (dat0 V c).flushed 2 t = ((cfg0.win 2).blk t).view.read (Elt Ideal) (mm 50000 512 64 (V c main_v30) (V c main_v31)) := by
  show (cfg0.win 2).cut (grid0.coords t) ((dat0 V c).after 2 t) = _
  rw [after0_2]
  unfold out0_2
  rw [View.canon_unit_zero hz]
  simp only [View.ld_unit_zero (S := S10000x512) hz, View.ld_unit_zero (S := S512x64) hz]
  funext y
  obtain ⟨r, j, rfl⟩ : ∃ (r : Fin 10000) (j : Fin 64), y = ix2 r j := ⟨y 0, y 1, eq_ix2 y⟩
  show k0_pay1 (iblk0 V c 0 t) (iblk0 V c 1 t) (ix2 r j) = mm 50000 512 64 (V c main_v30) (V c main_v31) (((cfg0.win 2).blk t).view.emb (ix2 r j))
  rw [emb_2, mm_ix2]
  refine (Pay.pay0_apply (iblk0 V c 0 t) (iblk0 V c 1 t) r j).trans ?_
  refine Finset.sum_congr rfl fun k _ => ?_
  rw [read_0 V c t r k, read_1 V c t k j]

/-! ## The blocks cover the array -/

/-- An index of the result array is in point `t`'s block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row `i` lies in block `i / 10000`, and every point writes back. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hq : (i 0).val / 10000 < 5 := by omega
  obtain ⟨-, -, -, -, e4, e5⟩ := idx_facts ⟨(i 0).val / 10000, lt_of_lt_of_eq hq N_0.symm⟩
  refine ⟨⟨(i 0).val / 10000, lt_of_lt_of_eq hq N_0.symm⟩, flush0_2 _, ?_⟩
  rw [mem_blk]
  intro a
  match a with
  | ⟨0, _⟩ =>
    show win0_2.index ⟨(i 0).val / 10000, _⟩ (0 : Fin 2) * 10000 ≤ (i 0).val ∧ (i 0).val < win0_2.index ⟨(i 0).val / 10000, _⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, _⟩ (1 : Fin 2) * 64 ≤ (i 1).val ∧ (i 1).val < win0_2.index ⟨(i 0).val / 10000, _⟩ (1 : Fin 2) * 64 + 64
    rw [e5]
    omega

/-! ## The result array after the region -/

/-- After the region the result array is the whole product of the two operand arrays as the region found them. -/
theorem final (c : Dev nD) : (dat0 V c).arrAt 2 cfg0.N = mm 50000 512 64 (V c main_v30) (V c main_v31) :=
  (dat0 V c).arrAt_eq_of_cover 2 _ (fun t _ => flushed_eq V c t) cover

end Cert.KernelIdeal.Region0

end
-- ==== Proof.Region1.lean ====
/-
  What the second pipelined product leaves in its result array, as one function of the two operand arrays as the region
  finds them (`V`). The grid has 5 points; at point `t` the pipeline fetches rows `10000 t … 10000 t + 9999` of the
  [50000, 64] operand and the whole [64, 16] weight array, the body stores their product, and the pipeline writes it back to rows
  `10000 t … 10000 t + 9999` of the [50000, 16] result. A row of a product depends only on the same row of the left operand:
  entry `(r, j)` of block `t`'s product is the sum over `k` of `x (10000 t + r, k) · w (k, j)`, which is entry
  `(10000 t + r, j)` of the whole product `mm`. So every point writes back its block of `mm`; the five blocks cover every
  row (row `i` lies in block `i / 10000`); hence the array ends as `mm` of the two operands.
-/
import proofs.«102583_j43052752175665_1_alg».proof.Proof.Gen.KernelIdeal.Frame
import proofs.«102583_j43052752175665_1_alg».proof.Proof.Spec
import proofs.«102583_j43052752175665_1_alg».proof.Proof.Payload
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the rows' block and the result's block are block `t` along the rows; the weights'
    block is always block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 5 := lt_of_lt_of_eq t.isLt N_1

/-- Row `r` of block `t` is row `10000 t + r` of the array. -/
def row (t : Fin cfg1.N) (r : Fin 10000) : Fin 50000 := ⟨t.val * 10000 + r.val, by have := t_lt t; have := r.isLt; omega⟩

/-! ## Where a block's entry sits in its array -/

theorem emb_0 (t : Fin cfg1.N) (r : Fin 10000) (k : Fin 64) :
    ((cfg1.win 0).blk t).view.emb (ix2 r k) = ix2 (row t r) k := by
  obtain ⟨e0, e1, -, -, -, -⟩ := idx_facts t
  funext a; apply Fin.ext
  match a with
  | ⟨0, _⟩ => show win1_0.index t (0 : Fin 2) * 10000 + 1 * r.val = t.val * 10000 + r.val; omega
  | ⟨1, _⟩ => show win1_0.index t (1 : Fin 2) * 64 + 1 * k.val = k.val; omega

theorem emb_1 (t : Fin cfg1.N) (k : Fin 64) (j : Fin 16) :
    ((cfg1.win 1).blk t).view.emb (ix2 k j) = ix2 k j := by
  obtain ⟨-, -, e2, e3, -, -⟩ := idx_facts t
  funext a; apply Fin.ext
  match a with
  | ⟨0, _⟩ => show win1_1.index t (0 : Fin 2) * 64 + 1 * k.val = k.val; omega
  | ⟨1, _⟩ => show win1_1.index t (1 : Fin 2) * 16 + 1 * j.val = j.val; omega

theorem emb_2 (t : Fin cfg1.N) (r : Fin 10000) (j : Fin 16) :
    ((cfg1.win 2).blk t).view.emb (ix2 r j) = ix2 (row t r) j := by
  obtain ⟨-, -, -, -, e4, e5⟩ := idx_facts t
  funext a; apply Fin.ext
  match a with
  | ⟨0, _⟩ => show win1_2.index t (0 : Fin 2) * 10000 + 1 * r.val = t.val * 10000 + r.val; omega
  | ⟨1, _⟩ => show win1_2.index t (1 : Fin 2) * 16 + 1 * j.val = j.val; omega

/-- Block `t` of the rows array, read at `(r, k)`, is the array at row `10000 t + r`. -/
theorem read_0 (c : Dev nD) (t : Fin cfg1.N) (r : Fin 10000) (k : Fin 64) :
    iblk1 V c 0 t (ix2 r k) = V c main_v50 (ix2 (row t r) k) := by
  show V c main_v50 (((cfg1.win 0).blk t).view.emb (ix2 r k)) = _
  rw [emb_0]

/-- The weights' block is the whole weight array at every point. -/
theorem read_1 (c : Dev nD) (t : Fin cfg1.N) (k : Fin 64) (j : Fin 16) :
    iblk1 V c 1 t (ix2 k j) = V c main_v51 (ix2 k j) := by
  show V c main_v51 (((cfg1.win 1).blk t).view.emb (ix2 k j)) = _
  rw [emb_1]

/-! ## Every point writes back its block of the whole product -/

theorem flushed_eq (c : Dev nD) (t : Fin cfg1.N) :
    (dat1 V c).flushed 2 t = ((cfg1.win 2).blk t).view.read (Elt Ideal) (mm 50000 64 16 (V c main_v50) (V c main_v51)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x16) hz]
  funext y
  obtain ⟨r, j, rfl⟩ : ∃ (r : Fin 10000) (j : Fin 16), y = ix2 r j := ⟨y 0, y 1, eq_ix2 y⟩
  show k1_pay1 (iblk1 V c 0 t) (iblk1 V c 1 t) (ix2 r j) = mm 50000 64 16 (V c main_v50) (V c main_v51) (((cfg1.win 2).blk t).view.emb (ix2 r j))
  rw [emb_2, mm_ix2]
  refine (Pay.pay1_apply (iblk1 V c 0 t) (iblk1 V c 1 t) r j).trans ?_
  refine Finset.sum_congr rfl fun k _ => ?_
  rw [read_0 V c t r k, read_1 V c t k j]

/-! ## The blocks cover the array -/

/-- An index of the result array is in point `t`'s block iff each coordinate is in the block's range on its axis. -/
theorem mem_blk (t : Fin cfg1.N) (i : S50000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v52).slice (win1_2.rect t)).set ↔ _
  rw [View.set_slice_whole, Rect.mem_set_unit]
  exact Iff.rfl

/-- Row `i` lies in block `i / 10000`, and every point writes back. -/
theorem cover (i : S50000x16.Idx) : ∃ t : Fin cfg1.N, (cfg1.win 2).flush t = true ∧ i ∈ ((cfg1.win 2).blk t).view.set := by
  have hi0 : (i 0).val < 50000 := (i 0).isLt
  have hi1 : (i 1).val < 16 := (i 1).isLt
  have hq : (i 0).val / 10000 < 5 := by omega
  obtain ⟨-, -, -, -, e4, e5⟩ := idx_facts ⟨(i 0).val / 10000, lt_of_lt_of_eq hq N_1.symm⟩
  refine ⟨⟨(i 0).val / 10000, lt_of_lt_of_eq hq N_1.symm⟩, flush1_2 _, ?_⟩
  rw [mem_blk]
  intro a
  match a with
  | ⟨0, _⟩ =>
    show win1_2.index ⟨(i 0).val / 10000, _⟩ (0 : Fin 2) * 10000 ≤ (i 0).val ∧ (i 0).val < win1_2.index ⟨(i 0).val / 10000, _⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, _⟩ (1 : Fin 2) * 16 ≤ (i 1).val ∧ (i 1).val < win1_2.index ⟨(i 0).val / 10000, _⟩ (1 : Fin 2) * 16 + 16
    rw [e5]
    omega

/-! ## The result array after the region -/

/-- After the region the result array is the whole product of the two operand arrays as the region found them. -/
theorem final (c : Dev nD) : (dat1 V c).arrAt 2 cfg1.N = mm 50000 64 16 (V c main_v50) (V c main_v51) :=
  (dat1 V c).arrAt_eq_of_cover 2 _ (fun t _ => flushed_eq V c t) cover

end Cert.KernelIdeal.Region1

end
-- ==== Proof.HostStages.lean ====
/-
  The host operations of the kernel's program, stretch by stretch, read as the shared chains of the specification. The
  program has three stretches of host operations: before the first product (the graph's normalisation, and the two
  operands rounded to the matrix unit's input format), between the products (the first layer's aggregation, the rectifier,
  the rounding again) and after the second product (the second layer's aggregation). Each stretch is a fold of its
  operations over the buffer contents it starts from; each lemma below takes ANY starting contents `X` and says what one
  buffer holds after the stretch, as a named chain of the buffers the stretch read. Nothing is said here about what the
  starting contents are: the two products' results enter as the contents of their result buffers.
-/
import proofs.«102583_j43052752175665_1_alg».proof.Proof.Gen.KernelIdeal.Frame
import proofs.«102583_j43052752175665_1_alg».proof.Proof.Spec
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Cert.Gcn

variable {F : FTy → Type} [FloatOps F]

/-! ## Before the first product -/

/-- The sources, with the self loops. -/
theorem head_src (X : Valuation τ sig (Elt F)) :
    StableHlo.after (hostOps0_2 (F := F)) (StableHlo.after hostOps0_1 (StableHlo.after hostOps0 X)) (Proc.devRef .tc main_v3) = srcOf (F := F) (X (Proc.devRef .tc main_arg1)) := by
  after_results_simp <;> rfl

/-- The destinations, with the self loops. -/
theorem head_dst (X : Valuation τ sig (Elt F)) :
    StableHlo.after (hostOps0_2 (F := F)) (StableHlo.after hostOps0_1 (StableHlo.after hostOps0 X)) (Proc.devRef .tc main_v6) = dstOf (F := F) (X (Proc.devRef .tc main_arg1)) := by
  after_results_simp <;> rfl

/-- The edges' weights. -/
theorem head_norm (X : Valuation τ sig (Elt F)) :
    StableHlo.after (hostOps0_2 (F := F)) (StableHlo.after hostOps0_1 (StableHlo.after hostOps0 X)) (Proc.devRef .tc main_v29)
      = normOf (F := F) (srcOf (F := F) (X (Proc.devRef .tc main_arg1))) (dstOf (F := F) (X (Proc.devRef .tc main_arg1))) := by
  after_results_simp <;> rfl

/-- The first product's left operand: the features, rounded. -/
theorem head_x (X : Valuation τ sig (Elt F)) :
    StableHlo.after (hostOps0_2 (F := F)) (StableHlo.after hostOps0_1 (StableHlo.after hostOps0 X)) (Proc.devRef .tc main_v30) = truncf (F := F) (φ := .f32) .bf16 (X (Proc.devRef .tc main_arg0)) bitsLt_bf16_f32 := by
  after_results_simp <;> rfl

/-- The first product's right operand: the first layer's weights, rounded. -/
theorem head_w (X : Valuation τ sig (Elt F)) :
    StableHlo.after (hostOps0_2 (F := F)) (StableHlo.after hostOps0_1 (StableHlo.after hostOps0 X)) (Proc.devRef .tc main_v31) = truncf (F := F) (φ := .f32) .bf16 (X (Proc.devRef .tc main_arg2)) bitsLt_bf16_f32 := by
  after_results_simp <;> rfl

theorem head_keep_b1 (X : Valuation τ sig (Elt F)) : StableHlo.after (hostOps0_2 (F := F)) (StableHlo.after hostOps0_1 (StableHlo.after hostOps0 X)) (Proc.devRef .tc main_arg3) = X (Proc.devRef .tc main_arg3) := by
  after_results_simp

theorem head_keep_w2 (X : Valuation τ sig (Elt F)) : StableHlo.after (hostOps0_2 (F := F)) (StableHlo.after hostOps0_1 (StableHlo.after hostOps0 X)) (Proc.devRef .tc main_arg4) = X (Proc.devRef .tc main_arg4) := by
  after_results_simp

theorem head_keep_b2 (X : Valuation τ sig (Elt F)) : StableHlo.after (hostOps0_2 (F := F)) (StableHlo.after hostOps0_1 (StableHlo.after hostOps0 X)) (Proc.devRef .tc main_arg5) = X (Proc.devRef .tc main_arg5) := by
  after_results_simp

/-! ## Between the products -/

/-- The second product's left operand: the first layer aggregated, rectified and rounded. -/
theorem mid_x (X : Valuation τ sig (Elt F)) :
    StableHlo.after (hostOps1_2 (F := F)) (StableHlo.after hostOps1_1 (StableHlo.after hostOps1 X)) (Proc.devRef .tc main_v50)
      = truncf (F := F) (φ := .f32) .bf16 (relu64 (F := F) (agg64 (F := F) (X (Proc.devRef .tc main_v32)) (X (Proc.devRef .tc main_v3)) (X (Proc.devRef .tc main_v6)) (X (Proc.devRef .tc main_v29)) (X (Proc.devRef .tc main_arg3)))) bitsLt_bf16_f32 := by
  after_results_simp <;> rfl

/-- The second product's right operand: the second layer's weights, rounded. -/
theorem mid_w (X : Valuation τ sig (Elt F)) :
    StableHlo.after (hostOps1_2 (F := F)) (StableHlo.after hostOps1_1 (StableHlo.after hostOps1 X)) (Proc.devRef .tc main_v51) = truncf (F := F) (φ := .f32) .bf16 (X (Proc.devRef .tc main_arg4)) bitsLt_bf16_f32 := by
  after_results_simp <;> rfl

theorem mid_keep_src (X : Valuation τ sig (Elt F)) : StableHlo.after (hostOps1_2 (F := F)) (StableHlo.after hostOps1_1 (StableHlo.after hostOps1 X)) (Proc.devRef .tc main_v3) = X (Proc.devRef .tc main_v3) := by
  after_results_simp

theorem mid_keep_dst (X : Valuation τ sig (Elt F)) : StableHlo.after (hostOps1_2 (F := F)) (StableHlo.after hostOps1_1 (StableHlo.after hostOps1 X)) (Proc.devRef .tc main_v6) = X (Proc.devRef .tc main_v6) := by
  after_results_simp

theorem mid_keep_norm (X : Valuation τ sig (Elt F)) : StableHlo.after (hostOps1_2 (F := F)) (StableHlo.after hostOps1_1 (StableHlo.after hostOps1 X)) (Proc.devRef .tc main_v29) = X (Proc.devRef .tc main_v29) := by
  after_results_simp

theorem mid_keep_b2 (X : Valuation τ sig (Elt F)) : StableHlo.after (hostOps1_2 (F := F)) (StableHlo.after hostOps1_1 (StableHlo.after hostOps1 X)) (Proc.devRef .tc main_arg5) = X (Proc.devRef .tc main_arg5) := by
  after_results_simp

/-! ## After the second product -/

/-- The result: the second layer aggregated. -/
theorem tail_out (X : Valuation τ sig (Elt F)) :
    StableHlo.after (hostOps2 (F := F)) X (Proc.devRef .tc main_v68)
      = agg16 (F := F) (X (Proc.devRef .tc main_v52)) (X (Proc.devRef .tc main_v3)) (X (Proc.devRef .tc main_v6)) (X (Proc.devRef .tc main_v29)) (X (Proc.devRef .tc main_arg5)) := by
  after_results_simp <;> rfl

end Cert.KernelIdeal.Host

end
-- ==== Proof.KernelValue.lean ====
/-
  The value of the idealized kernel's result buffer at the end of its run, as the specification's network over the two
  plain matrix products.

  The run's last boundary contents `W9` are built boundary by boundary from the launch memory. Walking forward: the first
  stretch of host operations leaves the sources, the destinations and the edge weights (functions of the edge list alone)
  and the two rounded operands; the first region leaves their product in its result array and touches nothing else; the
  second stretch aggregates, rectifies and rounds; the second region multiplies by the second layer's weights; the last
  stretch aggregates again. On the extended reals rounding to the matrix unit's input format is the identity, so the
  operands of the two products are the features and the weights themselves, and the rectified first layer itself.
-/
import proofs.«102583_j43052752175665_1_alg».proof.Proof.Gen.KernelIdeal.Frame
import proofs.«102583_j43052752175665_1_alg».proof.Proof.Spec
import proofs.«102583_j43052752175665_1_alg».proof.Proof.Region0
import proofs.«102583_j43052752175665_1_alg».proof.Proof.Region1
import proofs.«102583_j43052752175665_1_alg».proof.Proof.HostStages

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo Cert.Gcn

variable (m : (ℓ : Loc nD τ sig) → Buf (Elt Ideal) ℓ) (ρ : Dev nD → PrngReg) (c : Dev nD)

/-- On the extended reals a change of float format is the identity. -/
theorem truncf_id {s : Shape} {φ ψ : FTy} (x : FVec Ideal s φ) (h : ψ.bits < φ.bits) : truncf (F := Ideal) ψ x h = x := rfl

/-! ## At the first region's entry -/

theorem W3_src : W3 (F := Ideal) m ρ c (Proc.devRef .tc main_v3) = srcOf (F := Ideal) (m ((c.tc : Thread nD τ).loc main_arg1)) :=
  Host.head_src (F := Ideal) (W0 m ρ c)
theorem W3_dst : W3 (F := Ideal) m ρ c (Proc.devRef .tc main_v6) = dstOf (F := Ideal) (m ((c.tc : Thread nD τ).loc main_arg1)) :=
  Host.head_dst (F := Ideal) (W0 m ρ c)
theorem W3_norm : W3 (F := Ideal) m ρ c (Proc.devRef .tc main_v29) = (normOf (F := Ideal) (srcOf (F := Ideal) (m ((c.tc : Thread nD τ).loc main_arg1))) (dstOf (F := Ideal) (m ((c.tc : Thread nD τ).loc main_arg1)))) :=
  Host.head_norm (F := Ideal) (W0 m ρ c)
theorem W3_x : V3 (F := Ideal) m ρ c main_v30 = truncf (F := Ideal) (φ := .f32) .bf16 (m ((c.tc : Thread nD τ).loc main_arg0)) bitsLt_bf16_f32 :=
  Host.head_x (F := Ideal) (W0 m ρ c)
theorem W3_w : V3 (F := Ideal) m ρ c main_v31 = truncf (F := Ideal) (φ := .f32) .bf16 (m ((c.tc : Thread nD τ).loc main_arg2)) bitsLt_bf16_f32 :=
  Host.head_w (F := Ideal) (W0 m ρ c)
theorem W3_b1 : W3 (F := Ideal) m ρ c (Proc.devRef .tc main_arg3) = (m ((c.tc : Thread nD τ).loc main_arg3)) := Host.head_keep_b1 (F := Ideal) (W0 m ρ c)
theorem W3_w2 : W3 (F := Ideal) m ρ c (Proc.devRef .tc main_arg4) = (m ((c.tc : Thread nD τ).loc main_arg4)) := Host.head_keep_w2 (F := Ideal) (W0 m ρ c)
theorem W3_b2 : W3 (F := Ideal) m ρ c (Proc.devRef .tc main_arg5) = (m ((c.tc : Thread nD τ).loc main_arg5)) := Host.head_keep_b2 (F := Ideal) (W0 m ρ c)

/-! ## At the first region's exit -/

/-- The first product. -/
theorem W4_out : W4 (F := Ideal) m ρ c (Proc.devRef .tc main_v32) = (mm 50000 512 64 (m ((c.tc : Thread nD τ).loc main_arg0)) (m ((c.tc : Thread nD τ).loc main_arg2))) := by
  have h1 : W4 (F := Ideal) m ρ c (Proc.devRef .tc main_v32) = (dat0 (V3 m ρ) c).arrAt 2 cfg0.N := W4_arr m ρ c 2
  rw [h1, Region0.final (V3 m ρ) c, W3_x, W3_w, truncf_id, truncf_id]

theorem W4_src : W4 (F := Ideal) m ρ c (Proc.devRef .tc main_v3) = (srcOf (F := Ideal) (m ((c.tc : Thread nD τ).loc main_arg1))) := (W4_of_ne m ρ c main_v3 (by decide)).trans (W3_src m ρ c)
theorem W4_dst : W4 (F := Ideal) m ρ c (Proc.devRef .tc main_v6) = (dstOf (F := Ideal) (m ((c.tc : Thread nD τ).loc main_arg1))) := (W4_of_ne m ρ c main_v6 (by decide)).trans (W3_dst m ρ c)
theorem W4_norm : W4 (F := Ideal) m ρ c (Proc.devRef .tc main_v29) = (normOf (F := Ideal) (srcOf (F := Ideal) (m ((c.tc : Thread nD τ).loc main_arg1))) (dstOf (F := Ideal) (m ((c.tc : Thread nD τ).loc main_arg1)))) := (W4_of_ne m ρ c main_v29 (by decide)).trans (W3_norm m ρ c)
theorem W4_b1 : W4 (F := Ideal) m ρ c (Proc.devRef .tc main_arg3) = (m ((c.tc : Thread nD τ).loc main_arg3)) := (W4_of_ne m ρ c main_arg3 (by decide)).trans (W3_b1 m ρ c)
theorem W4_w2 : W4 (F := Ideal) m ρ c (Proc.devRef .tc main_arg4) = (m ((c.tc : Thread nD τ).loc main_arg4)) := (W4_of_ne m ρ c main_arg4 (by decide)).trans (W3_w2 m ρ c)
theorem W4_b2 : W4 (F := Ideal) m ρ c (Proc.devRef .tc main_arg5) = (m ((c.tc : Thread nD τ).loc main_arg5)) := (W4_of_ne m ρ c main_arg5 (by decide)).trans (W3_b2 m ρ c)

/-! ## At the second region's entry -/

/-- The second product's left operand: the rectified first layer. -/
theorem W7_x : V7 (F := Ideal) m ρ c main_v50 = truncf (F := Ideal) (φ := .f32) .bf16 (relu64 (F := Ideal) (agg64 (F := Ideal) (mm 50000 512 64 (m ((c.tc : Thread nD τ).loc main_arg0)) (m ((c.tc : Thread nD τ).loc main_arg2))) (srcOf (F := Ideal) (m ((c.tc : Thread nD τ).loc main_arg1))) (dstOf (F := Ideal) (m ((c.tc : Thread nD τ).loc main_arg1))) (normOf (F := Ideal) (srcOf (F := Ideal) (m ((c.tc : Thread nD τ).loc main_arg1))) (dstOf (F := Ideal) (m ((c.tc : Thread nD τ).loc main_arg1)))) (m ((c.tc : Thread nD τ).loc main_arg3)))) bitsLt_bf16_f32 :=
  (Host.mid_x (F := Ideal) (W4 m ρ c)).trans (by rw [W4_out, W4_src, W4_dst, W4_norm, W4_b1])
theorem W7_w : V7 (F := Ideal) m ρ c main_v51 = truncf (F := Ideal) (φ := .f32) .bf16 (m ((c.tc : Thread nD τ).loc main_arg4)) bitsLt_bf16_f32 :=
  (Host.mid_w (F := Ideal) (W4 m ρ c)).trans (by rw [W4_w2])
theorem W7_src : W7 (F := Ideal) m ρ c (Proc.devRef .tc main_v3) = (srcOf (F := Ideal) (m ((c.tc : Thread nD τ).loc main_arg1))) := (Host.mid_keep_src (F := Ideal) (W4 m ρ c)).trans (W4_src m ρ c)
theorem W7_dst : W7 (F := Ideal) m ρ c (Proc.devRef .tc main_v6) = (dstOf (F := Ideal) (m ((c.tc : Thread nD τ).loc main_arg1))) := (Host.mid_keep_dst (F := Ideal) (W4 m ρ c)).trans (W4_dst m ρ c)
theorem W7_norm : W7 (F := Ideal) m ρ c (Proc.devRef .tc main_v29) = (normOf (F := Ideal) (srcOf (F := Ideal) (m ((c.tc : Thread nD τ).loc main_arg1))) (dstOf (F := Ideal) (m ((c.tc : Thread nD τ).loc main_arg1)))) := (Host.mid_keep_norm (F := Ideal) (W4 m ρ c)).trans (W4_norm m ρ c)
theorem W7_b2 : W7 (F := Ideal) m ρ c (Proc.devRef .tc main_arg5) = (m ((c.tc : Thread nD τ).loc main_arg5)) := (Host.mid_keep_b2 (F := Ideal) (W4 m ρ c)).trans (W4_b2 m ρ c)

/-! ## At the second region's exit -/

/-- The second product. -/
theorem W8_out : W8 (F := Ideal) m ρ c (Proc.devRef .tc main_v52) = mm 50000 64 16 (relu64 (F := Ideal) (agg64 (F := Ideal) (mm 50000 512 64 (m ((c.tc : Thread nD τ).loc main_arg0)) (m ((c.tc : Thread nD τ).loc main_arg2))) (srcOf (F := Ideal) (m ((c.tc : Thread nD τ).loc main_arg1))) (dstOf (F := Ideal) (m ((c.tc : Thread nD τ).loc main_arg1))) (normOf (F := Ideal) (srcOf (F := Ideal) (m ((c.tc : Thread nD τ).loc main_arg1))) (dstOf (F := Ideal) (m ((c.tc : Thread nD τ).loc main_arg1)))) (m ((c.tc : Thread nD τ).loc main_arg3)))) (m ((c.tc : Thread nD τ).loc main_arg4)) := by
  have h1 : W8 (F := Ideal) m ρ c (Proc.devRef .tc main_v52) = (dat1 (V7 m ρ) c).arrAt 2 cfg1.N := W8_arr m ρ c 2
  rw [h1, Region1.final (V7 m ρ) c, W7_x, W7_w, truncf_id, truncf_id]

theorem W8_src : W8 (F := Ideal) m ρ c (Proc.devRef .tc main_v3) = (srcOf (F := Ideal) (m ((c.tc : Thread nD τ).loc main_arg1))) := (W8_of_ne m ρ c main_v3 (by decide)).trans (W7_src m ρ c)
theorem W8_dst : W8 (F := Ideal) m ρ c (Proc.devRef .tc main_v6) = (dstOf (F := Ideal) (m ((c.tc : Thread nD τ).loc main_arg1))) := (W8_of_ne m ρ c main_v6 (by decide)).trans (W7_dst m ρ c)
theorem W8_norm : W8 (F := Ideal) m ρ c (Proc.devRef .tc main_v29) = (normOf (F := Ideal) (srcOf (F := Ideal) (m ((c.tc : Thread nD τ).loc main_arg1))) (dstOf (F := Ideal) (m ((c.tc : Thread nD τ).loc main_arg1)))) := (W8_of_ne m ρ c main_v29 (by decide)).trans (W7_norm m ρ c)
theorem W8_b2 : W8 (F := Ideal) m ρ c (Proc.devRef .tc main_arg5) = (m ((c.tc : Thread nD τ).loc main_arg5)) := (W8_of_ne m ρ c main_arg5 (by decide)).trans (W7_b2 m ρ c)

/-! ## At the return -/

/-- The kernel's result: the network over the two plain products. -/
theorem value : W9 (F := Ideal) m ρ c (Proc.devRef .tc main_v68)
    = net (F := Ideal) (mm 50000 512 64 (m ((c.tc : Thread nD τ).loc main_arg0)) (m ((c.tc : Thread nD τ).loc main_arg2))) (fun h => mm 50000 64 16 h (m ((c.tc : Thread nD τ).loc main_arg4))) (m ((c.tc : Thread nD τ).loc main_arg1)) (m ((c.tc : Thread nD τ).loc main_arg3)) (m ((c.tc : Thread nD τ).loc main_arg5)) := by
  refine (Host.tail_out (F := Ideal) (W8 m ρ c)).trans ?_
  rw [W8_out, W8_src, W8_dst, W8_norm, W8_b2]
  rfl

end Cert.KernelIdeal.Net

end
-- ==== Proof.RefValue.lean ====
/-
  The reference computes the network with two whole matrix products on the host. On the extended reals a host
  `dot_general` with one contracted axis is the plain product `mm`: entry `(r, j)` is the sum over `k` of
  `x (r, k) · w (k, j)` (no accumulator, and the order of the sum does not matter). With the two products written that way
  the reference's result is the shared chains around them: `net`.
-/
import proofs.«102583_j43052752175665_1_alg».proof.Proof.RefRunP
import proofs.«102583_j43052752175665_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Gcn

/-! ## The first product: 50000 × 512 times 512 × 64 -/

abbrev D0 := dot_S50000x512_S512x64_S50000x64_1_0_0_1_n_n

theorem D0_lhs0 (i : (⟨2, ![50000, 64]⟩ : Shape).Idx) (q : D0.contr.Idx) : (D0.lhsIdx i q 0).val = (i 0).val := by
  unfold DotDims.lhsIdx
  rw [dif_neg (show ¬(0 : Fin S50000x512.rank) ∈ D0.lhsBatch by decide), dif_pos (show (0 : Fin S50000x512.rank) ∈ D0.lhsNonContracting by decide)]
  rfl

theorem D0_rhs1 (i : (⟨2, ![50000, 64]⟩ : Shape).Idx) (q : D0.contr.Idx) : (D0.rhsIdx i q 1).val = (i 1).val := by
  unfold DotDims.rhsIdx
  rw [dif_neg (show ¬(1 : Fin S512x64.rank) ∈ D0.rhsBatch by decide), dif_pos (show (1 : Fin S512x64.rank) ∈ D0.rhsNonContracting by decide)]
  rfl

/-- The left operand's index at output `(r, j)` and contraction index `k` is `(r, k)`. -/
theorem D0_lhs (r : Fin 50000) (j : Fin 64) (k : Fin 512) :
    D0.lhsIdx (ix2 r j) ((contrEquiv1 D0 512 rfl rfl).symm k) = ix2 r k := by
  have hk := contrEquiv1_symm_val D0 512 rfl rfl k
  funext a; apply Fin.ext
  match a with
  | ⟨0, _⟩ => exact D0_lhs0 _ _
  | ⟨1, _⟩ => exact (D0.lhsIdx_val_of_single rfl (ix2 r j) _).trans hk

/-- The right operand's index at output `(r, j)` and contraction index `k` is `(k, j)`. -/
theorem D0_rhs (r : Fin 50000) (j : Fin 64) (k : Fin 512) :
    D0.rhsIdx (ix2 r j) ((contrEquiv1 D0 512 rfl rfl).symm k) = ix2 k j := by
  have hk := contrEquiv1_symm_val D0 512 rfl rfl k
  funext a; apply Fin.ext
  match a with
  | ⟨0, _⟩ => exact (D0.rhsIdx_val_of_single rfl (ix2 r j) _).trans hk
  | ⟨1, _⟩ => exact D0_rhs1 _ _

/-- The host's first product is `mm`. -/
theorem dot0_eq (x : (⟨S50000x512, .f32⟩ : BufTy).Contents (Elt Ideal)) (w : (⟨S512x64, .f32⟩ : BufTy).Contents (Elt Ideal)) :
    Host.dotGeneral (F := Ideal) (φ₁ := .f32) (φ₂ := .f32) D0 none x w = mm 50000 512 64 x w := by
  funext i
  obtain ⟨r, j, rfl⟩ : ∃ (r : Fin 50000) (j : Fin 64), i = ix2 r j := ⟨i 0, i 1, eq_ix2 i⟩
  rw [mm_ix2]
  simp only [Host.dotGeneral]
  rw [Ideal.dotGeneral_apply, ← Equiv.sum_comp (contrEquiv1 D0 512 rfl rfl).symm]
  refine Finset.sum_congr rfl fun k _ => ?_
  rw [D0_lhs, D0_rhs]

/-! ## The second product: 50000 × 64 times 64 × 16 -/

abbrev D1 := dot_S50000x64_S64x16_S50000x16_1_0_0_1_n_n

theorem D1_lhs0 (i : (⟨2, ![50000, 16]⟩ : Shape).Idx) (q : D1.contr.Idx) : (D1.lhsIdx i q 0).val = (i 0).val := by
  unfold DotDims.lhsIdx
  rw [dif_neg (show ¬(0 : Fin S50000x64.rank) ∈ D1.lhsBatch by decide), dif_pos (show (0 : Fin S50000x64.rank) ∈ D1.lhsNonContracting by decide)]
  rfl

theorem D1_rhs1 (i : (⟨2, ![50000, 16]⟩ : Shape).Idx) (q : D1.contr.Idx) : (D1.rhsIdx i q 1).val = (i 1).val := by
  unfold DotDims.rhsIdx
  rw [dif_neg (show ¬(1 : Fin S64x16.rank) ∈ D1.rhsBatch by decide), dif_pos (show (1 : Fin S64x16.rank) ∈ D1.rhsNonContracting by decide)]
  rfl

/-- The left operand's index at output `(r, j)` and contraction index `k` is `(r, k)`. -/
theorem D1_lhs (r : Fin 50000) (j : Fin 16) (k : Fin 64) :
    D1.lhsIdx (ix2 r j) ((contrEquiv1 D1 64 rfl rfl).symm k) = ix2 r k := by
  have hk := contrEquiv1_symm_val D1 64 rfl rfl k
  funext a; apply Fin.ext
  match a with
  | ⟨0, _⟩ => exact D1_lhs0 _ _
  | ⟨1, _⟩ => exact (D1.lhsIdx_val_of_single rfl (ix2 r j) _).trans hk

/-- The right operand's index at output `(r, j)` and contraction index `k` is `(k, j)`. -/
theorem D1_rhs (r : Fin 50000) (j : Fin 16) (k : Fin 64) :
    D1.rhsIdx (ix2 r j) ((contrEquiv1 D1 64 rfl rfl).symm k) = ix2 k j := by
  have hk := contrEquiv1_symm_val D1 64 rfl rfl k
  funext a; apply Fin.ext
  match a with
  | ⟨0, _⟩ => exact (D1.rhsIdx_val_of_single rfl (ix2 r j) _).trans hk
  | ⟨1, _⟩ => exact D1_rhs1 _ _

/-- The host's second product is `mm`. -/
theorem dot1_eq (x : (⟨S50000x64, .f32⟩ : BufTy).Contents (Elt Ideal)) (w : (⟨S64x16, .f32⟩ : BufTy).Contents (Elt Ideal)) :
    Host.dotGeneral (F := Ideal) (φ₁ := .f32) (φ₂ := .f32) D1 none x w = mm 50000 64 16 x w := by
  funext i
  obtain ⟨r, j, rfl⟩ : ∃ (r : Fin 50000) (j : Fin 16), i = ix2 r j := ⟨i 0, i 1, eq_ix2 i⟩
  rw [mm_ix2]
  simp only [Host.dotGeneral]
  rw [Ideal.dotGeneral_apply, ← Equiv.sum_comp (contrEquiv1 D1 64 rfl rfl).symm]
  refine Finset.sum_congr rfl fun k _ => ?_
  rw [D1_lhs, D1_rhs]

/-! ## The reference's result -/

/-- The reference's composed term is the shared chains around its two host products. -/
theorem res_eq_net_dot (m : (ℓ : Loc nD τ sig) → Buf (Elt Ideal) ℓ) (c : Dev nD) :
    ValueP.res_main_v64 (F := Ideal) m c
      = net (F := Ideal) (Host.dotGeneral (F := Ideal) (φ₁ := .f32) (φ₂ := .f32) D0 none (m ((c.tc : Thread nD τ).loc main_arg0)) (m ((c.tc : Thread nD τ).loc main_arg2)))
          (fun h => Host.dotGeneral (F := Ideal) (φ₁ := .f32) (φ₂ := .f32) D1 none h (m ((c.tc : Thread nD τ).loc main_arg4)))
          (m ((c.tc : Thread nD τ).loc main_arg1)) (m ((c.tc : Thread nD τ).loc main_arg3)) (m ((c.tc : Thread nD τ).loc main_arg5)) := by
  unfold ValueP.res_main_v64
  rfl

/-- The reference's result: `net` over the two plain products. -/
theorem res_eq (m : (ℓ : Loc nD τ sig) → Buf (Elt Ideal) ℓ) (c : Dev nD) :
    ValueP.res_main_v64 (F := Ideal) m c
      = net (F := Ideal) (mm 50000 512 64 (m ((c.tc : Thread nD τ).loc main_arg0)) (m ((c.tc : Thread nD τ).loc main_arg2)))
          (fun h => mm 50000 64 16 h (m ((c.tc : Thread nD τ).loc main_arg4)))
          (m ((c.tc : Thread nD τ).loc main_arg1)) (m ((c.tc : Thread nD τ).loc main_arg3)) (m ((c.tc : Thread nD τ).loc main_arg5)) := by
  rw [res_eq_net_dot, dot0_eq]
  exact congrArg (fun p2 => net (F := Ideal) _ p2 _ _ _) (funext fun h => dot1_eq h _)

end Cert.ReferenceIdeal.RefValue

end
-- ==== Proof.lean ====
/-
  A two-layer graph convolution: node features `x` [50000, 512], an edge list [2, 800000], weights `W₁` [512, 64],
  `W₂` [64, 16] and biases. Both programs add a self loop to every node, weight each edge by the inverse square roots of
  the degrees at its two ends, and compute
      out = agg (relu (agg (x · W₁) + b₁) · W₂) + b₂,
  where `agg` gathers a row per edge at the edge's source, scales it by the edge's weight and adds the scaled rows up at
  the edge's destination. The kernel computes the two products `x · W₁` and `relu (…) · W₂` on the matrix unit, 10000 rows
  at a time into an accumulator of zeros, with its operands rounded to a 16-bit format first; the reference computes them
  as two whole host products. Everything else is the same host operations in both programs.

  On the extended reals the rounding is the identity, a zero accumulator adds nothing, and a row of a product depends on
  the same row of the left operand only, so five row blocks of a product are the product: each of the kernel's two
  pipelined regions leaves in its result array the plain product of its operand arrays (`Region0`, `Region1` over
  `Payload`), which is also what the host's product is (`RefValue`). The host operations around the products are carried
  as named chains that are never opened (`Spec`, `HostStages`): the kernel's result (`KernelValue`, read off the whole
  run of `KernelRun`) and the reference's are one term, `net` over the two plain products. No law used needs finiteness:
  the precondition is not opened. The idealization rewrote no operation, so there is nothing to preserve.
-/
import proofs.«102583_j43052752175665_1_alg».proof.Defs
import proofs.«102583_j43052752175665_1_alg».proof.Proof.Gen.Kernel
import proofs.«102583_j43052752175665_1_alg».proof.Proof.Gen.Kernel.Skeleton
import proofs.«102583_j43052752175665_1_alg».proof.Proof.Gen.Kernel.Launch
import proofs.«102583_j43052752175665_1_alg».proof.Proof.Gen.Kernel.Points
import proofs.«102583_j43052752175665_1_alg».proof.Proof.Gen.Kernel.Frame
import proofs.«102583_j43052752175665_1_alg».proof.Proof.Gen.KernelIdeal
import proofs.«102583_j43052752175665_1_alg».proof.Proof.Gen.KernelIdeal.Skeleton
import proofs.«102583_j43052752175665_1_alg».proof.Proof.Gen.KernelIdeal.Launch
import proofs.«102583_j43052752175665_1_alg».proof.Proof.Gen.KernelIdeal.Points
import proofs.«102583_j43052752175665_1_alg».proof.Proof.Gen.KernelIdeal.Frame
import proofs.«102583_j43052752175665_1_alg».proof.Proof.Gen.ReferenceIdeal
import proofs.«102583_j43052752175665_1_alg».proof.Proof.Gen.Pre_finite_inputs
import proofs.«102583_j43052752175665_1_alg».proof.Proof.KernelRun
import proofs.«102583_j43052752175665_1_alg».proof.Proof.KernelValue
import proofs.«102583_j43052752175665_1_alg».proof.Proof.RefRunP
import proofs.«102583_j43052752175665_1_alg».proof.Proof.RefValue
import Idealize.ShloMosaic.Adequacy
import Idealize.ShloMosaic.Init

noncomputable section

namespace Cert.Proof

open Idealize.ShloMosaic Idealize.ShloMosaic.TcCoe Idealize.SL.Sem Cert.Gcn

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization is the program's own text read on the extended reals: no rewrite, nothing to preserve. -/
theorem preserves : Cert.preserves_Kernel_KernelIdeal := trivial

/-- From memories that agree on the arguments both programs end with the network `net` over the two plain products of
    the arguments: the kernel by the value of its whole run, the reference by its composed term. -/
theorem algebraic : Cert.algebraic_KernelIdeal_ReferenceIdeal := by
  intro m ρ m' ρ' _ hagree
  refine ⟨fun c => net (F := Ideal) (mm 50000 512 64 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (fun h => mm 50000 64 16 h (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Net.value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.RefValue.res_eq m' c).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
